-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S64x64 : Shape := ⟨2, ![64, 64]⟩
abbrev S64 : Shape := ⟨1, ![64]⟩
abbrev S200000x12 : Shape := ⟨2, ![200000, 12]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S200000x32 .f32) (main_arg1 : FVec F S64x64 .f32) (main_arg2 : FVec F S64 .f32) (main_arg3 : FVec F S64 .f32) (main_arg4 : FVec F S64 .f32) (main_arg5 : IVec S200000x12 32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S200000x32 : Shape := ⟨2, ![200000, 32]⟩
abbrev S64x64 : Shape := ⟨2, ![64, 64]⟩
abbrev S64 : Shape := ⟨1, ![64]⟩
abbrev S200000x12 : Shape := ⟨2, ![200000, 12]⟩
abbrev S_ : Shape := ⟨0, ![]⟩
abbrev S200000x12x1 : Shape := ⟨3, ![200000, 12, 1]⟩
abbrev S200000x12x32 : Shape := ⟨3, ![200000, 12, 32]⟩
abbrev S200000x6x64 : Shape := ⟨3, ![200000, 6, 64]⟩
abbrev S1x64 : Shape := ⟨2, ![1, 64]⟩
abbrev S200000x64 : Shape := ⟨2, ![200000, 64]⟩
abbrev S1000x6x64 : Shape := ⟨3, ![1000, 6, 64]⟩
abbrev S1000x64 : Shape := ⟨2, ![1000, 64]⟩
abbrev S6000x64 : Shape := ⟨2, ![6000, 64]⟩
abbrev S1x1x64 : Shape := ⟨3, ![1, 1, 64]⟩
abbrev S1000x1x64 : Shape := ⟨3, ![1000, 1, 64]⟩

abbrev nBuf : Space → Nat
  | .hbm => 20
  | .vmem => 8
  | .smem => 0
  | _ => 0

abbrev bufTy : (tb : Table) → Fin (tcTables nBuf tb) → BufTy
  | .hbm, ⟨0, _⟩ => ⟨S200000x32, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S200000x12, .i32⟩
  | .hbm, ⟨6, _⟩ => ⟨S_, .i32⟩
  | .hbm, ⟨7, _⟩ => ⟨S200000x12, .i32⟩
  | .hbm, ⟨8, _⟩ => ⟨S200000x12, .i1⟩
  | .hbm, ⟨9, _⟩ => ⟨S_, .i32⟩
  | .hbm, ⟨10, _⟩ => ⟨S200000x12, .i32⟩
  | .hbm, ⟨11, _⟩ => ⟨S200000x12, .i32⟩
  | .hbm, ⟨12, _⟩ => ⟨S200000x12, .i32⟩
  | .hbm, ⟨13, _⟩ => ⟨S200000x12x1, .i32⟩
  | .hbm, ⟨14, _⟩ => ⟨S200000x12x32, .f32⟩
  | .hbm, ⟨15, _⟩ => ⟨S200000x6x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S200000x64, .f32⟩
  | .local _ .vmem, ⟨0, _⟩ => ⟨S1000x6x64, .f32⟩
  | .local _ .vmem, ⟨1, _⟩ => ⟨S1000x6x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1000x64, .f32⟩
  | .local _ .vmem, ⟨7, _⟩ => ⟨S1000x64, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x6x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S200000x12 : S_.BroadcastsInDim S200000x12 (![] : Fin 0 → Fin S200000x12.rank)
  bcast_S200000x12_S200000x12x1_0_1 : S200000x12.BroadcastsInDim S200000x12x1 (![0, 1] : Fin 2 → Fin S200000x12x1.rank)
  shapeCasts_S200000x12x32_S200000x6x64 : S200000x12x32.ShapeCasts S200000x6x64
  shapeCasts_S64_S1x64 : S64.ShapeCasts S1x64
  inb_S1000x6x64_S1000x6x64_0_0_0 : ∀ a, (![0, 0, 0] : Fin 3 → Nat) a + S1000x6x64.size a ≤ S1000x6x64.size a
  h_S1000x6x64 : 0 < S1000x6x64.numel
  shapeCasts_S1000x6x64_S1000x6x64 : S1000x6x64.ShapeCasts S1000x6x64
  bitsLt_bf16_f32 : FTy.bits .bf16 < FTy.bits .f32
  shapeCasts_S1000x6x64_S6000x64 : S1000x6x64.ShapeCasts S6000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S6000x64_S1000x6x64 : S6000x64.ShapeCasts S1000x6x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S1000x6x64 : S1x1x64.Broadcasts S1000x6x64
  reduces_S1000x6x64_S1000x64 : S1000x6x64.Reduces [1] S1000x64
  shapeCasts_S1000x64_S1000x1x64 : S1000x64.ShapeCasts S1000x1x64
  broadcasts_S1000x1x64_S1000x6x64 : S1000x1x64.Broadcasts S1000x6x64
  inb_S1000x64_S1000x64_0_0 : ∀ a, (![0, 0] : Fin 2 → Nat) a + S1000x64.size a ≤ S1000x64.size a
  h_S1000x64 : 0 < S1000x64.numel
  gather_S200000x32_S200000x12x1_S200000x12x32_2_0_n_n_0_2_132_wf : GatherDims.WF S200000x32 S200000x12x1 S200000x12x32 [2] [0] [] [0] [] 2 ![1, 32]
  dot_S6000x64_S64x64_S6000x64_1_0_0_1_n_n_wf : DotDims.WF S6000x64 S64x64 S6000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x6x64.size a ≤ S200000x6x64.size a
  hwx0_0 : ∀ i : grid0.Coords, EltTy.bits .f32 = 32 ∨ (Rect.block (s := S200000x6x64) S1000x6x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x64.size a ≤ S200000x64.size a
  hwx0_5 : ∀ i : grid0.Coords, EltTy.bits .f32 = 32 ∨ (Rect.block (s := S200000x64) S1000x64.size (cc0_transform_5 i) (hinb0_5 i)).WholeWords (EltTy.packing .f32)

variable [Facts₀]

def gather_S200000x32_S200000x12x1_S200000x12x32_2_0_n_n_0_2_132 : GatherDims S200000x32 S200000x12x1 S200000x12x32 where
  offsetDims := [2]
  collapsedSliceDims := [0]
  operandBatchingDims := []
  startIndicesBatchingDims := []
  startIndexMap := [0]
  indexVectorDim := 2
  sliceSizes := ![1, 32]
  wf := gather_S200000x32_S200000x12x1_S200000x12x32_2_0_n_n_0_2_132_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf

abbrev win0_0 : Pipeline.Window sig grid0 :=
  Pipeline.Window.ofSpec (Memref.whole main_v7) S1000x6x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x32 : Shape := ⟨2, ![200000, 32]⟩
abbrev S64x64 : Shape := ⟨2, ![64, 64]⟩
abbrev S64 : Shape := ⟨1, ![64]⟩
abbrev S200000x12 : Shape := ⟨2, ![200000, 12]⟩
abbrev S_ : Shape := ⟨0, ![]⟩
abbrev S200000x12x1 : Shape := ⟨3, ![200000, 12, 1]⟩
abbrev S200000x12x32 : Shape := ⟨3, ![200000, 12, 32]⟩
abbrev S200000x6x64 : Shape := ⟨3, ![200000, 6, 64]⟩
abbrev S1x1x64 : Shape := ⟨3, ![1, 1, 64]⟩
abbrev S200000x64 : Shape := ⟨2, ![200000, 64]⟩
abbrev S200000x1x64 : Shape := ⟨3, ![200000, 1, 64]⟩

abbrev nBuf : Space → Nat
  | .hbm => 66
  | .vmem => 0
  | .smem => 0
  | _ => 0

abbrev bufTy : (tb : Table) → Fin (tcTables nBuf tb) → BufTy
  | .hbm, ⟨0, _⟩ => ⟨S200000x32, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S200000x12, .i32⟩
  | .hbm, ⟨6, _⟩ => ⟨S_, .i32⟩
  | .hbm, ⟨7, _⟩ => ⟨S200000x12, .i32⟩
  | .hbm, ⟨8, _⟩ => ⟨S200000x12, .i1⟩
  | .hbm, ⟨9, _⟩ => ⟨S_, .i32⟩
  | .hbm, ⟨10, _⟩ => ⟨S200000x12, .i32⟩
  | .hbm, ⟨11, _⟩ => ⟨S200000x12, .i32⟩
  | .hbm, ⟨12, _⟩ => ⟨S200000x12, .i32⟩
  | .hbm, ⟨13, _⟩ => ⟨S200000x12x1, .i32⟩
  | .hbm, ⟨14, _⟩ => ⟨S200000x12x32, .f32⟩
  | .hbm, ⟨15, _⟩ => ⟨S200000x6x64, .f32⟩
  | .hbm, ⟨16, _⟩ => ⟨S200000x6x64, .f32⟩
  | .hbm, ⟨17, _⟩ => ⟨S1x1x64, .f32⟩
  | .hbm, ⟨18, _⟩ => ⟨S200000x6x64, .f32⟩
  | .hbm, ⟨19, _⟩ => ⟨S200000x6x64, .f32⟩
  | .hbm, ⟨20, _⟩ => ⟨S_, .f32⟩
  | .hbm, ⟨21, _⟩ => ⟨S200000x64, .f32⟩
  | .hbm, ⟨22, _⟩ => ⟨S200000x1x64, .f32⟩
  | .hbm, ⟨23, _⟩ => ⟨S_, .f32⟩
  | .hbm, ⟨24, _⟩ => ⟨S200000x1x64, .f32⟩
  | .hbm, ⟨25, _⟩ => ⟨S200000x1x64, .f32⟩
  | .hbm, ⟨26, _⟩ => ⟨S_, .i32⟩
  | .hbm, ⟨27, _⟩ => ⟨S_, .f32⟩
  | .hbm, ⟨28, _⟩ => ⟨S200000x64, .f32⟩
  | .hbm, ⟨29, _⟩ => ⟨S200000x1x64, .f32⟩
  | .hbm, ⟨30, _⟩ => ⟨S_, .f32⟩
  | .hbm, ⟨31, _⟩ => ⟨S200000x1x64, .f32⟩
  | .hbm, ⟨32, _⟩ => ⟨S200000x1x64, .f32⟩
  | .hbm, ⟨33, _⟩ => ⟨S200000x6x64, .f32⟩
  | .hbm, ⟨34, _⟩ => ⟨S200000x6x64, .f32⟩
  | .hbm, ⟨35, _⟩ => ⟨S200000x6x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S200000x64, .f32⟩
  | .hbm, ⟨41, _⟩ => ⟨S200000x1x64, .f32⟩
  | .hbm, ⟨42, _⟩ => ⟨S200000x1x64, .f32⟩
  | .hbm, ⟨43, _⟩ => ⟨S200000x1x64, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S200000x1x64, .f32⟩
  | .hbm, ⟨49, _⟩ => ⟨S200000x1x64, .f32⟩
  | .hbm, ⟨50, _⟩ => ⟨S200000x6x64, .f32⟩
  | .hbm, ⟨51, _⟩ => ⟨S200000x6x64, .f32⟩
  | .hbm, ⟨52, _⟩ => ⟨S_, .f32⟩
  | .hbm, ⟨53, _⟩ => ⟨S200000x1x64, .f32⟩
  | .hbm, ⟨54, _⟩ => ⟨S200000x1x64, .f32⟩
  | .hbm, ⟨55, _⟩ => ⟨S200000x1x64, .f32⟩
  | .hbm, ⟨56, _⟩ => ⟨S200000x6x64, .f32⟩
  | .hbm, ⟨57, _⟩ => ⟨S200000x6x64, .f32⟩
  | .hbm, ⟨58, _⟩ => ⟨S1x1x64, .f32⟩
  | .hbm, ⟨59, _⟩ => ⟨S200000x6x64, .f32⟩
  | .hbm, ⟨60, _⟩ => ⟨S200000x6x64, .f32⟩
  | .hbm, ⟨61, _⟩ => ⟨S1x1x64, .f32⟩
  | .hbm, ⟨62, _⟩ => ⟨S200000x6x64, .f32⟩
  | .hbm, ⟨63, _⟩ => ⟨S200000x6x64, .f32⟩
  | .hbm, ⟨64, _⟩ => ⟨S_, .f32⟩
  | .hbm, ⟨65, _⟩ => ⟨S200000x64, .f32⟩
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩

abbrev nD : Nat := 1
abbrev τ : Topo := Topo.v7x

variable {F : FTy → Type} [FloatOps F]

class Facts₀ : Prop where
  bcast_S_S200000x12 : S_.BroadcastsInDim S200000x12 (![] : Fin 0 → Fin S200000x12.rank)
  bcast_S200000x12_S200000x12x1_0_1 : S200000x12.BroadcastsInDim S200000x12x1 (![0, 1] : Fin 2 → Fin S200000x12x1.rank)
  shapeCasts_S200000x12x32_S200000x6x64 : S200000x12x32.ShapeCasts S200000x6x64
  bcast_S64_S1x1x64_2 : S64.BroadcastsInDim S1x1x64 (![2] : Fin 1 → Fin S1x1x64.rank)
  bcast_S1x1x64_S200000x6x64_0_1_2 : S1x1x64.BroadcastsInDim S200000x6x64 (![0, 1, 2] : Fin 3 → Fin S200000x6x64.rank)
  reducesTo_S200000x6x64_S200000x64_d1 : S200000x6x64.ReducesTo [1] S200000x64
  h_S_ : 0 < S_.numel
  bcast_S200000x64_S200000x1x64_0_2 : S200000x64.BroadcastsInDim S200000x1x64 (![0, 2] : Fin 2 → Fin S200000x1x64.rank)
  bcast_S_S200000x1x64 : S_.BroadcastsInDim S200000x1x64 (![] : Fin 0 → Fin S200000x1x64.rank)
  bcast_S200000x1x64_S200000x6x64_0_1_2 : S200000x1x64.BroadcastsInDim S200000x6x64 (![0, 1, 2] : Fin 3 → Fin S200000x6x64.rank)
  gather_S200000x32_S200000x12x1_S200000x12x32_2_0_n_n_0_2_132_wf : GatherDims.WF S200000x32 S200000x12x1 S200000x12x32 [2] [0] [] [0] [] 2 ![1, 32]
  dot_S200000x6x64_S64x64_S200000x6x64_2_1_01_0_n_n_wf : DotDims.WF S200000x6x64 S64x64 S200000x6x64 [2] [1] [0, 1] [0] [] []

variable [Facts₀]

def gather_S200000x32_S200000x12x1_S200000x12x32_2_0_n_n_0_2_132 : GatherDims S200000x32 S200000x12x1 S200000x12x32 where
  offsetDims := [2]
  collapsedSliceDims := [0]
  operandBatchingDims := []
  startIndicesBatchingDims := []
  startIndexMap := [0]
  indexVectorDim := 2
  sliceSizes := ![1, 32]
  wf := gather_S200000x32_S200000x12x1_S200000x12x32_2_0_n_n_0_2_132_wf
def dot_S200000x6x64_S64x64_S200000x6x64_2_1_01_0_n_n : DotDims S200000x6x64 S64x64 S200000x6x64 where
  lhsContracting := [2]
  rhsContracting := [1]
  lhsNonContracting := [0, 1]
  rhsNonContracting := [0]
  lhsBatch := []
  rhsBatch := []
  wf := dot_S200000x6x64_S64x64_S200000x6x64_2_1_01_0_n_n_wf

class Facts : Prop extends Facts₀ where

variable [Facts]
-- ==== Proof.NodeNorm.lean ====
/-
  The function both programs compute, for ONE node.

  A node has six slots of 64 features (its twelve gathered neighbour rows, read two to a slot).  Each slot goes through
  one linear layer, `lin p o = (∑ i, x p i * W o i) + b o`; for each output feature `o` the six values `lin · o` are
  normalised by their own mean and (biased) variance over the six slots, scaled and shifted, and summed over the slots:

      mean o = (∑ p, lin p o) / 6
      dev p o = lin p o - mean o
      var o  = (∑ p, dev p o * dev p o) / 6
      out o  = ∑ p, (dev p o * rsqrt (var o + ε) * γ o + β o)

  Everything is on the extended reals, with the quotient and the reciprocal square root of the ideal instance, and the two
  float constants (the divisor 6 and ε) as the values their words denote.  A node's output depends on no other node, so a
  whole array of nodes and any block of rows of it are read through the same function.
-/
import Idealize.ShloMosaic.PureOps.Ideal
import Idealize.ShloMosaic.Lib.ValueIdx

noncomputable section

namespace Cert.NodeNorm

open Idealize.ShloMosaic Idealize.ShloMosaic.ValueIdx

/-- The divisor both programs spell, `6.0`. -/
abbrev six : EReal := Ideal.ofBits .f32 0x40C00000#32
/-- The variance offset both programs spell (the single-precision value nearest to 1e-5). -/
abbrev eps : EReal := Ideal.ofBits .f32 0x3727C5AC#32

variable (x : Fin 6 → Fin 64 → EReal) (W : Fin 64 → Fin 64 → EReal) (b g be : Fin 64 → EReal)

/-- The linear layer on slot `p`, output feature `o`. -/
def lin (p : Fin 6) (o : Fin 64) : EReal := (∑ i : Fin 64, x p i * W o i) + b o

/-- The mean of feature `o` over the six slots. -/
def mean (o : Fin 64) : EReal := Ideal.div (∑ p : Fin 6, lin x W b p o) six

/-- Slot `p`'s deviation from the mean. -/
def dev (p : Fin 6) (o : Fin 64) : EReal := lin x W b p o - mean x W b o

/-- The biased variance of feature `o` over the six slots. -/
def var (o : Fin 64) : EReal := Ideal.div (∑ p : Fin 6, dev x W b p o * dev x W b p o) six

/-- The node's output feature `o`: the normalised, scaled and shifted slots, summed. -/
def out (o : Fin 64) : EReal :=
  ∑ p : Fin 6, (dev x W b p o * Ideal.rsqrt (var x W b o + eps) * g o + be o)

/-! The same, split at the linear layer: the normalisation of six values, whatever they are. -/

/-- The mean of six values. -/
def mean6 (y : Fin 6 → EReal) : EReal := Ideal.div (∑ p : Fin 6, y p) six

/-- Their biased variance. -/
def var6 (y : Fin 6 → EReal) : EReal := Ideal.div (∑ p : Fin 6, (y p - mean6 y) * (y p - mean6 y)) six

/-- The six values normalised by their mean and variance, scaled by `gam`, shifted by `bet`, and summed. -/
def norm6 (y : Fin 6 → EReal) (gam bet : EReal) : EReal :=
  ∑ p : Fin 6, ((y p - mean6 y) * Ideal.rsqrt (var6 y + eps) * gam + bet)

/-- A node's output feature is the normalisation of that feature's six linear-layer values. -/
theorem out_eq_norm6 (o : Fin 64) : out x W b g be o = norm6 (fun p => lin x W b p o) (g o) (be o) := rfl

/-- The whole result array: row `n` is the node function of row `n` of the gathered features. -/
def G {N : ℕ} (X : (⟨3, ![N, 6, 64]⟩ : Shape).Idx → EReal) (Wm : (⟨2, ![64, 64]⟩ : Shape).Idx → EReal)
    (bv gv bev : (⟨1, ![64]⟩ : Shape).Idx → EReal) : (⟨2, ![N, 64]⟩ : Shape).Idx → EReal :=
  fun j => out (fun p i => X (ix3 (j 0) p i)) (fun o i => Wm (ix2 o i)) (fun o => bv (ix1 o)) (fun o => gv (ix1 o))
    (fun o => bev (ix1 o)) (j 1)

theorem G_apply {N : ℕ} (X : (⟨3, ![N, 6, 64]⟩ : Shape).Idx → EReal) (Wm : (⟨2, ![64, 64]⟩ : Shape).Idx → EReal)
    (bv gv bev : (⟨1, ![64]⟩ : Shape).Idx → EReal) (n : Fin N) (o : Fin 64) :
    G X Wm bv gv bev (ix2 n o) = out (fun p i => X (ix3 n p i)) (fun o i => Wm (ix2 o i)) (fun o => bv (ix1 o))
      (fun o => gv (ix1 o)) (fun o => bev (ix1 o)) o := rfl

end Cert.NodeNorm

end
-- ==== Proof.LibMidAxis.lean ====
/-
  Layout operations around the MIDDLE axis of a rank-3 array, read at an index written by coordinates: the first two
  axes flattened into one and split again, a matrix kept as a rank-3 array with a unit middle axis, that unit axis (or
  two leading unit axes) broadcast back, and a sum over the middle axis.  Each is the general read-at-an-index lemma of
  the layout operation with the operand's index already chosen.
-/
import Idealize.ShloMosaic.Lib.Pipeline.Value
import Idealize.ShloMosaic.Lib.ValueIdx
import Idealize.ShloMosaic.PureOps.Ideal.Laws

noncomputable section

namespace Cert.LibMidAxis

open Idealize.ShloMosaic Idealize.ShloMosaic.ValueIdx

variable {α : Type}

/-- An `[a, b, c]` array flattened to `[n, c]` reads, at `(q, k)` with `q = i * b + p`, the operand at `(i, p, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (p : Fin b) (k : Fin c) (q : Fin n)
    (hq : q.val = i.val * b + p.val) : shapeCast ⟨2, ![n, c]⟩ x h (ix2 q k) = x (ix3 i p k) :=
  shapeCast_apply x h _ _ (by
    rw [Shape.rowMajor_val_three, Shape.rowMajor_val_two]
    show (i.val * b + p.val) * c + k.val = q.val * c + k.val
    rw [hq])

/-- An `[n, c]` array split to `[a, b, c]` reads, at `(i, p, k)`, the operand at `(q, k)` with `q = i * b + p`. -/
theorem shapeCast_nc_abc_apply {a b c n : ℕ} (x : (⟨2, ![n, c]⟩ : Shape).Idx → α)
    (h : (⟨2, ![n, c]⟩ : Shape).ShapeCasts ⟨3, ![a, b, c]⟩) (i : Fin a) (p : Fin b) (k : Fin c) (q : Fin n)
    (hq : q.val = i.val * b + p.val) : shapeCast ⟨3, ![a, b, c]⟩ x h (ix3 i p k) = x (ix2 q k) :=
  shapeCast_apply x h _ _ (by
    rw [Shape.rowMajor_val_two, Shape.rowMajor_val_three]
    show q.val * c + k.val = (i.val * b + p.val) * c + k.val
    rw [hq])

/-- An `[a, c]` array kept as `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array broadcast to `[a, b, c]` reads, at `(i, p, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (p : Fin b) (k : Fin c) :
    broadcastTo ⟨3, ![a, b, c]⟩ v h (ix3 i p k) = v (ix3 i (0 : Fin 1) k) := by
  refine broadcastTo_apply v h (ix3 i p k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, p, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (p : Fin b) (k : Fin c) :
    broadcastTo ⟨3, ![a, b, c]⟩ v h (ix3 i p k) = v (ix3 (0 : Fin 1) (0 : Fin 1) k) := by
  refine broadcastTo_apply v h (ix3 i p k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The index of `[a, b, c]` over `(i, k)` of `[a, c]` with `p` inserted on the middle axis is `(i, p, k)`. -/
theorem lift_mid {a b c : ℕ} (h : (⟨3, ![a, b, c]⟩ : Shape).Reduces [1] ⟨2, ![a, c]⟩) (i : Fin a) (k : Fin c) (p : Fin b) :
    h.lift (ix2 i k) p = ix3 i p k := by
  funext ax
  apply Fin.ext
  match ax with
  | ⟨0, _⟩ => rfl
  | ⟨1, _⟩ => rfl
  | ⟨2, _⟩ => rfl

/-- A lane sum over the middle axis, at the ideal values and into the zero word, is the sum over that axis's coordinate. -/
theorem multiReduction_add_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ p : Fin b, src (ix3 i p k) :=
  (Ideal.multiReduction_add_single src _ h hφ hacc (ix2 i k)).trans
    (Finset.sum_congr rfl fun p _ => congrArg src (lift_mid h i k p))

/-- The host's sum over the middle axis, at the ideal values: the initial value plus the sum over that axis's coordinate. -/
theorem hostReduceAdd_mid {a b c : ℕ} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ p : Fin b, x (ix3 i p k) :=
  (Ideal.hostReduceAdd_single h' h x init (ix2 i k)).trans
    (congrArg (init + ·) (Finset.sum_congr rfl fun p _ => congrArg x (lift_mid h i k p)))

end Cert.LibMidAxis

end
-- ==== Proof.KernelPay.lean ====
/-
  What the kernel body computes for one block of 1000 nodes, read entry by entry.

  The body's value is split where the mathematics splits it: the linear layer on the block (the six slots of every node
  flattened into 6000 rows, multiplied by the transposed weight matrix, split back and shifted by the bias row), and
  the normalisation of every node's six values (mean and variance over the slot axis, kept as a unit axis and broadcast
  back).  Entry `(r, o)` of the block's result is the node function of row `r` of the block: nothing of any other row.
-/
import proofs.«148549_j20847771255045_2_alg».proof.Proof.Gen.KernelIdeal.Skeleton
import proofs.«148549_j20847771255045_2_alg».proof.Proof.NodeNorm
import proofs.«148549_j20847771255045_2_alg».proof.Proof.LibMidAxis
import Idealize.ShloMosaic.Lib.ValueLayout
import Idealize.ShloMosaic.Lib.StackMember
import Idealize.ShloMosaic.PureOps.Ideal.Laws

noncomputable section

namespace Cert.KernelIdeal.Pay

open Cert.KernelIdeal Cert.KernelIdeal.Gen Idealize.ShloMosaic Idealize.ShloMosaic.ValueIdx Cert.LibMidAxis Cert.NodeNorm

/-- A plain matrix product into the zero accumulator, at the ideal values, read at `(a, b)`: the sum over the contracted
    coordinate of the products of the entries (the host's product of the same operands is the same sum). -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  ((Ideal.matmul_constant_zero_apply (DotDims.plain m k n) prec A B (ix2 a b)).trans
    (Ideal.dotGeneral_apply (DotDims.plain m k n) prec .single A B (ix2 a b)).symm).trans
    (StackMember.dotGeneral_plain_apply prec A B a b)

/-- The kernel's contraction is the plain one: rows of the flattened block against columns of the transposed weights. -/
theorem dot_eq_plain : dot_S6000x64_S64x64_S6000x64_1_0_0_1_n_n = DotDims.plain 6000 64 64 := rfl

/-- The linear layer on the block: slot `p` of node `r` is row `6 r + p` of the flattened block. -/
def linBlock (x0 : FVec Ideal S1000x6x64 .f32) (x1 : FVec Ideal S64x64 .f32) (x2 : FVec Ideal S1x64 .f32) :
    FVec Ideal S1000x6x64 .f32 :=
  addf (shapeCast S1000x6x64 (matmul dot_S6000x64_S64x64_S6000x64_1_0_0_1_n_n none
      (shapeCast S6000x64 (truncf .bf16 (shapeCast S1000x6x64 x0 shapeCasts_S1000x6x64_S1000x6x64) bitsLt_bf16_f32)
        shapeCasts_S1000x6x64_S6000x64)
      (transpose S64x64 [1, 0] (truncf .bf16 x1 bitsLt_bf16_f32) transposes_S64x64_p1_0_S64x64)
      (constant S6000x64 .f32 0x00000000#32)) shapeCasts_S6000x64_S1000x6x64)
    (broadcastTo S1000x6x64 (shapeCast S1x1x64 (shapeCast S1x64 x2 shapeCasts_S1x64_S1x64) shapeCasts_S1x64_S1x1x64)
      broadcasts_S1x1x64_S1000x6x64)

/-- A feature row `[1, 64]` spread over the block. -/
def rowOver (v : FVec Ideal S1x64 .f32) : FVec Ideal S1000x6x64 .f32 :=
  broadcastTo S1000x6x64 (shapeCast S1x1x64 (shapeCast S1x64 v shapeCasts_S1x64_S1x64) shapeCasts_S1x64_S1x1x64)
    broadcasts_S1x1x64_S1000x6x64

/-- The sum over the slot axis divided by six, kept with a unit slot axis. -/
def sixthCol (Y : FVec Ideal S1000x6x64 .f32) : FVec Ideal S1000x1x64 .f32 :=
  divf (shapeCast S1000x1x64 (multiReduction .add [1] S1000x64 Y 0x00000000#32 reduces_S1000x6x64_S1000x64 (.inl rfl) rfl)
      shapeCasts_S1000x64_S1000x1x64)
    (broadcast S1000x1x64 (Scalar.ofBits .f32 0x40C00000#32))

/-- The deviations from the slot mean. -/
def devBlock (Y : FVec Ideal S1000x6x64 .f32) : FVec Ideal S1000x6x64 .f32 :=
  subf Y (broadcastTo S1000x6x64 (sixthCol Y) broadcasts_S1000x1x64_S1000x6x64)

/-- The reciprocal standard deviation, from the deviations. -/
def rstdCol (D : FVec Ideal S1000x6x64 .f32) : FVec Ideal S1000x1x64 .f32 :=
  rsqrt (addf (sixthCol (mulf D D)) (broadcast S1000x1x64 (Scalar.ofBits .f32 0x3727C5AC#32)))

/-- The normalisation of the block, summed over the slots. -/
def normBlock (Y : FVec Ideal S1000x6x64 .f32) (x3 x4 : FVec Ideal S1x64 .f32) : FVec Ideal S1000x64 .f32 :=
  multiReduction .add [1] S1000x64
    (addf (mulf (mulf (devBlock Y) (broadcastTo S1000x6x64 (rstdCol (devBlock Y)) broadcasts_S1000x1x64_S1000x6x64)) (rowOver x3))
      (rowOver x4))
    0x00000000#32 reduces_S1000x6x64_S1000x64 (.inl rfl) rfl

/-- The body's one stored value is the normalisation of the linear layer. -/
theorem pay_eq (x0 : FVec Ideal S1000x6x64 .f32) (x1 : FVec Ideal S64x64 .f32) (x2 x3 x4 : FVec Ideal S1x64 .f32) :
    k0_pay1 (F := Ideal) x0 x1 x2 x3 x4 = normBlock (linBlock x0 x1 x2) x3 x4 := rfl

/-! ## Each piece at an entry -/

theorem rowOver_apply (v : FVec Ideal S1x64 .f32) (r : Fin 1000) (p : Fin 6) (o : Fin 64) :
    rowOver v (ix3 r p o) = v (ix2 (0 : Fin 1) o) :=
  (broadcastTo_11c_abc_apply _ broadcasts_S1x1x64_S1000x6x64 r p o).trans
    ((shapeCast_ab_1ab_apply _ shapeCasts_S1x64_S1x1x64 (0 : Fin 1) (0 : Fin 1) o).trans
      (congrFun (shapeCast_self v shapeCasts_S1x64_S1x64) _))

theorem linBlock_apply (x0 : FVec Ideal S1000x6x64 .f32) (x1 : FVec Ideal S64x64 .f32) (x2 : FVec Ideal S1x64 .f32)
    (r : Fin 1000) (p : Fin 6) (o : Fin 64) :
    linBlock x0 x1 x2 (ix3 r p o)
      = lin (fun p i => x0 (ix3 r p i)) (fun o i => x1 (ix2 o i)) (fun o => x2 (ix2 (0 : Fin 1) o)) p o := by
  have hq : r.val * 6 + p.val < 6000 := by have := r.isLt; have := p.isLt; omega
  refine congrArg₂ (· + ·) ?_ (rowOver_apply x2 r p o)
  refine (shapeCast_nc_abc_apply _ shapeCasts_S6000x64_S1000x6x64 r p o ⟨r.val * 6 + p.val, hq⟩ rfl).trans ?_
  refine (matmul_plain_zero_apply none _ _ ⟨r.val * 6 + p.val, hq⟩ o).trans ?_
  refine Finset.sum_congr rfl fun i _ => congrArg₂ (· * ·) ?_ ?_
  · exact (shapeCast_abc_nc_apply _ shapeCasts_S1000x6x64_S6000x64 r p i ⟨r.val * 6 + p.val, hq⟩ rfl).trans
      (congrFun (shapeCast_self x0 shapeCasts_S1000x6x64_S1000x6x64) _)
  · exact transpose_ix2_apply _ transposes_S64x64_p1_0_S64x64 i o

theorem sixthCol_apply (Y : FVec Ideal S1000x6x64 .f32) (r : Fin 1000) (o : Fin 64) :
    sixthCol Y (ix3 r (0 : Fin 1) o) = Ideal.div (∑ p : Fin 6, Y (ix3 r p o)) six :=
  congrArg₂ Ideal.div
    ((shapeCast_ac_a1c_apply _ shapeCasts_S1000x64_S1000x1x64 r (0 : Fin 1) o).trans
      (multiReduction_add_mid Y reduces_S1000x6x64_S1000x64 (.inl rfl) rfl r o)) rfl

theorem devBlock_apply (Y : FVec Ideal S1000x6x64 .f32) (r : Fin 1000) (p : Fin 6) (o : Fin 64) :
    devBlock Y (ix3 r p o) = Y (ix3 r p o) - mean6 (fun p => Y (ix3 r p o)) :=
  congrArg₂ (· - ·) rfl
    ((broadcastTo_a1c_abc_apply _ broadcasts_S1000x1x64_S1000x6x64 r p o).trans (sixthCol_apply Y r o))

theorem rstdCol_apply (Y : FVec Ideal S1000x6x64 .f32) (r : Fin 1000) (o : Fin 64) :
    rstdCol (devBlock Y) (ix3 r (0 : Fin 1) o) = Ideal.rsqrt (var6 (fun p => Y (ix3 r p o)) + eps) := by
  refine congrArg Ideal.rsqrt (congrArg₂ (· + ·) ?_ rfl)
  refine (sixthCol_apply _ r o).trans (congrArg₂ Ideal.div (Finset.sum_congr rfl fun p _ => ?_) rfl)
  exact congrArg₂ (· * ·) (devBlock_apply Y r p o) (devBlock_apply Y r p o)

theorem normBlock_apply (Y : FVec Ideal S1000x6x64 .f32) (x3 x4 : FVec Ideal S1x64 .f32) (r : Fin 1000) (o : Fin 64) :
    normBlock Y x3 x4 (ix2 r o) = norm6 (fun p => Y (ix3 r p o)) (x3 (ix2 (0 : Fin 1) o)) (x4 (ix2 (0 : Fin 1) o)) := by
  refine (multiReduction_add_mid _ reduces_S1000x6x64_S1000x64 (.inl rfl) rfl r o).trans
    (Finset.sum_congr rfl fun p _ => ?_)
  refine congrArg₂ (· + ·) (congrArg₂ (· * ·) (congrArg₂ (· * ·) (devBlock_apply Y r p o) ?_) (rowOver_apply x3 r p o))
    (rowOver_apply x4 r p o)
  exact (broadcastTo_a1c_abc_apply _ broadcasts_S1000x1x64_S1000x6x64 r p o).trans (rstdCol_apply Y r o)

/-- ENTRY `(r, o)` OF THE BODY'S RESULT is the node function of row `r` of the block, at feature `o`. -/
theorem pay_apply (x0 : FVec Ideal S1000x6x64 .f32) (x1 : FVec Ideal S64x64 .f32) (x2 x3 x4 : FVec Ideal S1x64 .f32)
    (r : Fin 1000) (o : Fin 64) :
    k0_pay1 (F := Ideal) x0 x1 x2 x3 x4 (ix2 r o)
      = out (fun p i => x0 (ix3 r p i)) (fun o i => x1 (ix2 o i)) (fun o => x2 (ix2 (0 : Fin 1) o))
          (fun o => x3 (ix2 (0 : Fin 1) o)) (fun o => x4 (ix2 (0 : Fin 1) o)) o := by
  rw [pay_eq, normBlock_apply, out_eq_norm6]
  exact congrArg (fun y => norm6 y _ _) (funext fun p => linBlock_apply x0 x1 x2 r p o)

end Cert.KernelIdeal.Pay

end
-- ==== Proof.Gathered.lean ====
/-
  The gathered feature array both programs build before anything else: each of a node's twelve neighbour indices, a
  negative one first wrapped by adding the table's row count, selects one 32-feature row of the table, and the twelve
  rows are read as six slots of 64 features.  It is stated once, over the table `a0` and the index array `a5`, and is
  never opened: both programs apply the same operations to the same two arguments.
-/
import Idealize.ShloMosaic.PureOps.Ideal

noncomputable section

namespace Cert.Gathered

open Idealize.ShloMosaic

/-- The gathered features `[200000, 6, 64]` of a table `a0 : [200000, 32]` at the indices `a5 : [200000, 12]`. -/
def xsite {α : Type} (gd : GatherDims ⟨2, ![200000, 32]⟩ ⟨3, ![200000, 12, 1]⟩ ⟨3, ![200000, 12, 32]⟩)
    (hb : (⟨0, ![]⟩ : Shape).BroadcastsInDim ⟨2, ![200000, 12]⟩ ![])
    (hc : (⟨2, ![200000, 12]⟩ : Shape).BroadcastsInDim ⟨3, ![200000, 12, 1]⟩ ![0, 1])
    (hs : (⟨3, ![200000, 12, 32]⟩ : Shape).ShapeCasts ⟨3, ![200000, 6, 64]⟩)
    (a0 : (⟨2, ![200000, 32]⟩ : Shape).Idx → α) (a5 : IVec ⟨2, ![200000, 12]⟩ 32) :
    (⟨3, ![200000, 6, 64]⟩ : Shape).Idx → α :=
  shapeCast ⟨3, ![200000, 6, 64]⟩
    (Host.gather gd a0
      (broadcastInDim ⟨3, ![200000, 12, 1]⟩ ![0, 1] hc
        (select (cmpi .slt a5 (broadcastInDim ⟨2, ![200000, 12]⟩ ![] hb (constantI ⟨0, ![]⟩ 32 0#32)))
          (addi a5 (broadcastInDim ⟨2, ![200000, 12]⟩ ![] hb (constantI ⟨0, ![]⟩ 32 200000#32))) a5))) hs

end Cert.Gathered

end
-- ==== Proof.KernelWhole.lean ====
/-
  The kernel's whole result array.

  The grid has 200 points; point `t` reads rows `1000 t … 1000 t + 999` of the gathered features (all six slots, all 64
  features), the whole weight matrix and the three whole feature rows, and writes rows `1000 t … 1000 t + 999` of the
  result.  Since a node's output depends on its own row only, what point `t` writes is block `t` of ONE whole-array
  function, the node function applied row by row; the 200 blocks cover the 200000 rows, so the array ends as that function.
  Before the region the program gathers the features and views the bias, scale and shift vectors as rows `[1, 64]`.
-/
import proofs.«148549_j20847771255045_2_alg».proof.Proof.Gen.KernelIdeal.Value
import proofs.«148549_j20847771255045_2_alg».proof.Proof.KernelPay
import proofs.«148549_j20847771255045_2_alg».proof.Proof.Gathered
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Cert.NodeNorm
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result array as ONE function of the arrays the region finds: the node function row by row. -/
def Gfull (c : Dev nD) : S200000x64.Idx → EReal :=
  G (V m c main_v7) (V m c main_arg1) (fun i => V m c main_v8 (ix2 (0 : Fin 1) (i 0)))
    (fun i => V m c main_v9 (ix2 (0 : Fin 1) (i 0))) (fun i => V m c main_v10 (ix2 (0 : Fin 1) (i 0)))

/-- The printed index maps over the grid: the feature window and the result window are at row block `t`, everything else
    at block `0`. -/
theorem idx_facts : ∀ t : Fin cfg0.N, win0_0.index t (0 : Fin 3) = t.val ∧ win0_0.index t (1 : Fin 3) = 0
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 200 := by
  have h := t.isLt
  have hN : cfg0.N = 200 := N_0
  omega

/-- Row `r` of point `t`'s block is row `1000 t + r` of the array. -/
def row (t : Fin cfg0.N) (r : Fin 1000) : Fin 200000 :=
  ⟨t.val * 1000 + r.val, by have := t_lt t; have := r.isLt; omega⟩

/-! ## Each input block, read where the output's block says -/

theorem read0 (c : Dev nD) (t : Fin cfg0.N) (r : Fin 1000) (p : Fin 6) (i : Fin 64) :
    iblk m c 0 t (ix3 r p i) = V m c main_v7 (ix3 (row t r) p i) := by
  obtain ⟨e0, e1, e2, -⟩ := idx_facts t
  show V m c main_v7 (((cfg0.win 0).blk t).view.emb (ix3 r p i)) = V m c main_v7 (ix3 (row t r) p i)
  refine congrArg (V m c main_v7) (funext fun a => Fin.ext ?_)
  match a with
  | ⟨0, _⟩ => show win0_0.index t (0 : Fin 3) * 1000 + 1 * r.val = t.val * 1000 + r.val; omega
  | ⟨1, _⟩ => show win0_0.index t (1 : Fin 3) * 6 + 1 * p.val = p.val; omega
  | ⟨2, _⟩ => show win0_0.index t (2 : Fin 3) * 64 + 1 * i.val = i.val; omega

theorem read1 (c : Dev nD) (t : Fin cfg0.N) (o i : Fin 64) :
    iblk m c 1 t (ix2 o i) = V m c main_arg1 (ix2 o i) := by
  obtain ⟨-, -, -, e0, e1, -⟩ := idx_facts t
  show V m c main_arg1 (((cfg0.win 1).blk t).view.emb (ix2 o i)) = V m c main_arg1 (ix2 o i)
  refine congrArg (V m c main_arg1) (funext fun a => Fin.ext ?_)
  match a with
  | ⟨0, _⟩ => show win0_1.index t (0 : Fin 2) * 64 + 1 * o.val = o.val; omega
  | ⟨1, _⟩ => show win0_1.index t (1 : Fin 2) * 64 + 1 * i.val = i.val; omega

theorem read2 (c : Dev nD) (t : Fin cfg0.N) (u : Fin 1) (o : Fin 64) :
    iblk m c 2 t (ix2 u o) = V m c main_v8 (ix2 u o) := by
  obtain ⟨-, -, -, -, -, e0, e1, -⟩ := idx_facts t
  show V m c main_v8 (((cfg0.win 2).blk t).view.emb (ix2 u o)) = V m c main_v8 (ix2 u o)
  refine congrArg (V m c main_v8) (funext fun a => Fin.ext ?_)
  match a with
  | ⟨0, _⟩ => show win0_2.index t (0 : Fin 2) * 1 + 1 * u.val = u.val; omega
  | ⟨1, _⟩ => show win0_2.index t (1 : Fin 2) * 64 + 1 * o.val = o.val; omega

theorem read3 (c : Dev nD) (t : Fin cfg0.N) (u : Fin 1) (o : Fin 64) :
    iblk m c 3 t (ix2 u o) = V m c main_v9 (ix2 u o) := by
  obtain ⟨-, -, -, -, -, -, -, e0, e1, -⟩ := idx_facts t
  show V m c main_v9 (((cfg0.win 3).blk t).view.emb (ix2 u o)) = V m c main_v9 (ix2 u o)
  refine congrArg (V m c main_v9) (funext fun a => Fin.ext ?_)
  match a with
  | ⟨0, _⟩ => show win0_3.index t (0 : Fin 2) * 1 + 1 * u.val = u.val; omega
  | ⟨1, _⟩ => show win0_3.index t (1 : Fin 2) * 64 + 1 * o.val = o.val; omega

theorem read4 (c : Dev nD) (t : Fin cfg0.N) (u : Fin 1) (o : Fin 64) :
    iblk m c 4 t (ix2 u o) = V m c main_v10 (ix2 u o) := by
  obtain ⟨-, -, -, -, -, -, -, -, -, e0, e1, -⟩ := idx_facts t
  show V m c main_v10 (((cfg0.win 4).blk t).view.emb (ix2 u o)) = V m c main_v10 (ix2 u o)
  refine congrArg (V m c main_v10) (funext fun a => Fin.ext ?_)
  match a with
  | ⟨0, _⟩ => show win0_4.index t (0 : Fin 2) * 1 + 1 * u.val = u.val; omega
  | ⟨1, _⟩ => show win0_4.index t (1 : Fin 2) * 64 + 1 * o.val = o.val; omega

/-- Entry `(r, o)` of the result block of point `t` sits at `(1000 t + r, o)` of the array. -/
theorem emb5 (t : Fin cfg0.N) (r : Fin 1000) (o : Fin 64) :
    ((cfg0.win 5).blk t).view.emb (ix2 r o) = ix2 (row t r) o := by
  obtain ⟨-, -, -, -, -, -, -, -, -, -, -, e0, e1⟩ := idx_facts t
  refine funext fun a => Fin.ext ?_
  match a with
  | ⟨0, _⟩ => show win0_5.index t (0 : Fin 2) * 1000 + 1 * r.val = t.val * 1000 + r.val; omega
  | ⟨1, _⟩ => show win0_5.index t (1 : Fin 2) * 64 + 1 * o.val = o.val; omega

/-! ## From blocks to the array -/

/-- WHAT POINT `t` WRITES BACK is block `t` of the whole-array function. -/
theorem flushed_eq (c : Dev nD) (t : Fin cfg0.N) :
    (dats m 0 c).flushed 5 t = ((cfg0.win 5).blk t).view.read (Elt Ideal) (Gfull m c) := by
  rw [Value.flushed5]
  unfold out0_5
  rw [View.canon_unit_zero hz2]
  simp only [View.ld_unit_zero (S := S1000x6x64) hz3, View.ld_unit_zero (S := S64x64) hz2, View.ld_unit_zero (S := S1x64) hz2]
  funext j
  obtain ⟨r, o, rfl⟩ : ∃ (r : Fin 1000) (o : Fin 64), j = ix2 r o := ⟨j 0, j 1, eq_ix2 (n0 := 1000) (n1 := 64) j⟩
  show k0_pay1 (F := Ideal) (iblk m c 0 t) (iblk m c 1 t) (iblk m c 2 t) (iblk m c 3 t) (iblk m c 4 t) (ix2 r o)
    = Gfull m c (((cfg0.win 5).blk t).view.emb (ix2 r o))
  rw [emb5 t r o]
  refine (Pay.pay_apply _ _ _ _ _ r o).trans ?_
  unfold Gfull
  rw [G_apply]
  have h0 : (fun (p : Fin 6) (i : Fin 64) => iblk m c 0 t (ix3 r p i)) = fun p i => V m c main_v7 (ix3 (row t r) p i) :=
    funext fun p => funext fun i => read0 m c t r p i
  have h1 : (fun (o i : Fin 64) => iblk m c 1 t (ix2 o i)) = fun o i => V m c main_arg1 (ix2 o i) :=
    funext fun o => funext fun i => read1 m c t o i
  have h2 : (fun (o : Fin 64) => iblk m c 2 t (ix2 (0 : Fin 1) o)) = fun o => V m c main_v8 (ix2 (0 : Fin 1) o) :=
    funext fun o => read2 m c t 0 o
  have h3 : (fun (o : Fin 64) => iblk m c 3 t (ix2 (0 : Fin 1) o)) = fun o => V m c main_v9 (ix2 (0 : Fin 1) o) :=
    funext fun o => read3 m c t 0 o
  have h4 : (fun (o : Fin 64) => iblk m c 4 t (ix2 (0 : Fin 1) o)) = fun o => V m c main_v10 (ix2 (0 : Fin 1) o) :=
    funext fun o => read4 m c t 0 o
  rw [h0, h1, h2, h3, h4]

/-- An index of the array is in point `t`'s block iff each coordinate is in the block's range on its axis. -/
theorem mem_blk (t : Fin cfg0.N) (i : S200000x64.Idx) :
    i ∈ ((cfg0.win 5).blk t).view.set ↔ ∀ a : Fin 2, win0_5.index t a * S1000x64.size a ≤ (i a).val
      ∧ (i a).val < win0_5.index t a * S1000x64.size a + S1000x64.size a := by
  show i ∈ ((View.whole main_v11).slice (win0_5.rect t)).set ↔ _
  rw [View.set_slice_whole, Rect.mem_set_unit]
  exact Iff.rfl

/-- Every row is in some point's block: row `n` in the block of point `n / 1000`. -/
theorem cover (i : S200000x64.Idx) : ∃ t : Fin cfg0.N, (cfg0.win 5).flush t = true ∧ i ∈ ((cfg0.win 5).blk t).view.set := by
  have hi0 : (i 0).val < 200000 := (i 0).isLt
  have hi1 : (i 1).val < 64 := (i 1).isLt
  have hN : cfg0.N = 200 := N_0
  refine ⟨⟨(i 0).val / 1000, by omega⟩, flush0_5 _, ?_⟩
  obtain ⟨-, -, -, -, -, -, -, -, -, -, -, e0, e1⟩ := idx_facts ⟨(i 0).val / 1000, by omega⟩
  rw [mem_blk]
  intro a
  match a with
  | ⟨0, _⟩ =>
    show win0_5.index ⟨(i 0).val / 1000, _⟩ (0 : Fin 2) * 1000 ≤ (i 0).val
      ∧ (i 0).val < win0_5.index ⟨(i 0).val / 1000, _⟩ (0 : Fin 2) * 1000 + 1000
    rw [e0]
    show (i 0).val / 1000 * 1000 ≤ (i 0).val ∧ (i 0).val < (i 0).val / 1000 * 1000 + 1000
    omega
  | ⟨1, _⟩ =>
    show win0_5.index ⟨(i 0).val / 1000, _⟩ (1 : Fin 2) * 64 ≤ (i 1).val
      ∧ (i 1).val < win0_5.index ⟨(i 0).val / 1000, _⟩ (1 : Fin 2) * 64 + 64
    rw [e1]
    omega

/-- THE ARRAY after the run is the whole-array function. -/
theorem final (c : Dev nD) : (dats m 0 c).arrAt 5 cfg0.N = Gfull m c :=
  (dats m 0 c).arrAt_eq_of_cover 5 (Gfull m c) (fun t _ => flushed_eq m c t) (cover)

end Cert.KernelIdeal.Whole

end
-- ==== Proof.KernelRun.lean ====
/-
  The kernel's run, read: the result array is the node function, row by row, of the gathered features, the weight matrix
  and the bias, scale and shift vectors as launched.

  Before the region the program builds the gathered features from the table and the index array and views each of the
  three vectors as a row `[1, 64]`; entry `(0, o)` of such a row is the vector's entry `o`.  The weight matrix reaches the
  region as launched.
-/
import proofs.«148549_j20847771255045_2_alg».proof.Proof.KernelWhole

noncomputable section

namespace Cert.KernelIdeal.Whole

open Cert.KernelIdeal Cert.KernelIdeal.Gen Idealize.ShloMosaic Idealize.ShloMosaic.TcCoe Idealize.SL.Sem
open Idealize.ShloMosaic.ValueIdx Cert.NodeNorm Idealize.ShloMosaic.StableHlo

variable (m : (ℓ : Loc nD τ sig) → Buf (Elt Ideal) ℓ) (ρ : Dev nD → PrngReg)

/-- The gathered features the region finds. -/
abbrev gathered (c : Dev nD) : S200000x6x64.Idx → EReal :=
  Cert.Gathered.xsite gather_S200000x32_S200000x12x1_S200000x12x32_2_0_n_n_0_2_132 bcast_S_S200000x12
    bcast_S200000x12_S200000x12x1_0_1 shapeCasts_S200000x12x32_S200000x6x64
    (m ((c : Thread nD τ).loc main_arg0)) (m ((c : Thread nD τ).loc main_arg5))

theorem V_main_v7 (c : Dev nD) : (V m c main_v7 : S200000x6x64.Idx → EReal) = gathered m c := by
  dsimp only [V, hostOps0]
  after_results
  rfl

theorem V_main_v8 (c : Dev nD) :
    (V m c main_v8 : S1x64.Idx → EReal) = shapeCast S1x64 (m ((c : Thread nD τ).loc main_arg2)) shapeCasts_S64_S1x64 := by
  dsimp only [V, hostOps0]
  after_results
  rfl

theorem V_main_v9 (c : Dev nD) :
    (V m c main_v9 : S1x64.Idx → EReal) = shapeCast S1x64 (m ((c : Thread nD τ).loc main_arg3)) shapeCasts_S64_S1x64 := by
  dsimp only [V, hostOps0]
  after_results
  rfl

theorem V_main_v10 (c : Dev nD) :
    (V m c main_v10 : S1x64.Idx → EReal) = shapeCast S1x64 (m ((c : Thread nD τ).loc main_arg4)) shapeCasts_S64_S1x64 := by
  dsimp only [V, hostOps0]
  after_results
  rfl

/-- A vector viewed as a row, read back along the row, is the vector. -/
theorem row_read (v : S64.Idx → EReal) :
    (fun i : S64.Idx => shapeCast S1x64 v shapeCasts_S64_S1x64 (ix2 (0 : Fin 1) (i 0))) = v := by
  funext i
  obtain ⟨o, rfl⟩ : ∃ o : Fin 64, i = ix1 o := ⟨i 0, eq_ix1 (n := 64) i⟩
  exact shapeCast_a_1a_apply v shapeCasts_S64_S1x64 (0 : Fin 1) o

/-- The whole-array function over the arguments as launched. -/
theorem Gfull_eq (c : Dev nD) :
    Gfull m c = G (gathered m c) (m ((c : Thread nD τ).loc main_arg1)) (m ((c : Thread nD τ).loc main_arg2))
      (m ((c : Thread nD τ).loc main_arg3)) (m ((c : Thread nD τ).loc main_arg4)) := by
  unfold Gfull
  rw [V_main_v7 m c, V_main_arg1 m c, V_main_v8 m c, V_main_v9 m c, V_main_v10 m c, row_read, row_read, row_read]

/-- The kernel's run: the result array ends as the node function of the gathered features, row by row; the arguments
    end unchanged. -/
theorem run : θ_run defs (onTc (τ := τ) (main (F := Ideal))) ⟨m, fun _ => 0, ρ⟩ fun r => ∀ c : Dev nD,
      r.2.mem ((c : Thread nD τ).loc main_v11)
        = G (gathered m c) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (Gfull_eq m c)), (h c).2⟩)
    (Value.run_blocks m ρ)

end Cert.KernelIdeal.Whole

end
-- ==== Proof.RefRun.lean ====
/-
  The reference program's @main as ONE straight line of host operations.

  @main calls @_var (the biased variance over the six slots), which calls @_where (a select against a fill value).  A call
  executes the callee's body on the operands, each value of the body in a buffer of its own; so the whole program is the
  twenty-one operations of @main before the call, @_var's twenty, @_where's three, and @main's remaining sixteen, in that
  order, each over literal buffers.  Run from any memory, every buffer ends at the fold of the operations' results over
  the launch contents.
-/
import proofs.«148549_j20847771255045_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 60 operations, in order: @main's up to the call, @_var's over the call's buffers (its arguments the
    buffers of %11 and %c_2), @_where's over the nested call's buffers (its arguments @_var's %13, %12 and %cst_4), then
    the rest of @main. -/
abbrev ops : List (HloOp τ sig (Elt F)) :=
  [ nullary main_c (constantI S_ 32 0#32),
    unary main_c main_v0 (broadcastInDim S200000x12 ![] bcast_S_S200000x12 : (⟨S_, .i32⟩ : BufTy).Contents (Elt F) → (⟨S200000x12, .i32⟩ : BufTy).Contents (Elt F)),
    binary main_arg5 main_v0 main_v1 (cmpi .slt : (⟨S200000x12, .i32⟩ : BufTy).Contents (Elt F) → (⟨S200000x12, .i32⟩ : BufTy).Contents (Elt F) → (⟨S200000x12, .i1⟩ : BufTy).Contents (Elt F)),
    nullary main_c_0 (constantI S_ 32 200000#32),
    unary main_c_0 main_v2 (broadcastInDim S200000x12 ![] bcast_S_S200000x12 : (⟨S_, .i32⟩ : BufTy).Contents (Elt F) → (⟨S200000x12, .i32⟩ : BufTy).Contents (Elt F)),
    binary main_arg5 main_v2 main_v3 (addi : (⟨S200000x12, .i32⟩ : BufTy).Contents (Elt F) → (⟨S200000x12, .i32⟩ : BufTy).Contents (Elt F) → (⟨S200000x12, .i32⟩ : BufTy).Contents (Elt F)),
    ternary main_v1 main_v3 main_arg5 main_v4 (select : (⟨S200000x12, .i1⟩ : BufTy).Contents (Elt F) → (⟨S200000x12, .i32⟩ : BufTy).Contents (Elt F) → (⟨S200000x12, .i32⟩ : BufTy).Contents (Elt F) → (⟨S200000x12, .i32⟩ : BufTy).Contents (Elt F)),
    unary main_v4 main_v5 (broadcastInDim S200000x12x1 ![0, 1] bcast_S200000x12_S200000x12x1_0_1 : (⟨S200000x12, .i32⟩ : BufTy).Contents (Elt F) → (⟨S200000x12x1, .i32⟩ : BufTy).Contents (Elt F)),
    binary main_arg0 main_v5 main_v6 ((fun x i => Host.gather gather_S200000x32_S200000x12x1_S200000x12x32_2_0_n_n_0_2_132 x i) : (⟨S200000x32, .f32⟩ : BufTy).Contents (Elt F) → (⟨S200000x12x1, .i32⟩ : BufTy).Contents (Elt F) → (⟨S200000x12x32, .f32⟩ : BufTy).Contents (Elt F)),
    reshape main_v6 main_v7 rfl shapeCasts_S200000x12x32_S200000x6x64,
    binary main_v7 main_arg1 main_v8 ((fun l r => Host.dotGeneral dot_S200000x6x64_S64x64_S200000x6x64_2_1_01_0_n_n none l r) : (⟨S200000x6x64, .f32⟩ : BufTy).Contents (Elt F) → (⟨S64x64, .f32⟩ : BufTy).Contents (Elt F) → (⟨S200000x6x64, .f32⟩ : BufTy).Contents (Elt F)),
    unary main_arg2 main_v9 (broadcastInDim S1x1x64 ![2] bcast_S64_S1x1x64_2 : (⟨S64, .f32⟩ : BufTy).Contents (Elt F) → (⟨S1x1x64, .f32⟩ : BufTy).Contents (Elt F)),
    unary main_v9 main_v10 (broadcastInDim S200000x6x64 ![0, 1, 2] bcast_S1x1x64_S200000x6x64_0_1_2 : (⟨S1x1x64, .f32⟩ : BufTy).Contents (Elt F) → (⟨S200000x6x64, .f32⟩ : BufTy).Contents (Elt F)),
    binary main_v8 main_v10 main_v11 (addf : (⟨S200000x6x64, .f32⟩ : BufTy).Contents (Elt F) → (⟨S200000x6x64, .f32⟩ : BufTy).Contents (Elt F) → (⟨S200000x6x64, .f32⟩ : BufTy).Contents (Elt F)),
    nullary main_cst (constant S_ .f32 0x00000000#32),
    binary main_v11 main_cst main_v12 ((fun x v => Host.reduceAdd x v reducesTo_S200000x6x64_S200000x64_d1 h_S_) : (⟨S200000x6x64, .f32⟩ : BufTy).Contents (Elt F) → (⟨S_, .f32⟩ : BufTy).Contents (Elt F) → (⟨S200000x64, .f32⟩ : BufTy).Contents (Elt F)),
    unary main_v12 main_v13 (broadcastInDim S200000x1x64 ![0, 2] bcast_S200000x64_S200000x1x64_0_2 : (⟨S200000x64, .f32⟩ : BufTy).Contents (Elt F) → (⟨S200000x1x64, .f32⟩ : BufTy).Contents (Elt F)),
    nullary main_cst_1 (constant S_ .f32 0x40C00000#32),
    unary main_cst_1 main_v14 (broadcastInDim S200000x1x64 ![] bcast_S_S200000x1x64 : (⟨S_, .f32⟩ : BufTy).Contents (Elt F) → (⟨S200000x1x64, .f32⟩ : BufTy).Contents (Elt F)),
    binary main_v13 main_v14 main_v15 (Host.divf : (⟨S200000x1x64, .f32⟩ : BufTy).Contents (Elt F) → (⟨S200000x1x64, .f32⟩ : BufTy).Contents (Elt F) → (⟨S200000x1x64, .f32⟩ : BufTy).Contents (Elt F)),
    nullary main_c_2 (constantI S_ 32 0#32),
    TRef.nullary main_call0.cst (constant S_ .f32 0x00000000#32),
    TRef.binary (TRef.of main_v11 : TRef sig ⟨S200000x6x64, .f32⟩) main_call0.cst main_call0.v0 (fun x v => Host.reduceAdd x v reducesTo_S200000x6x64_S200000x64_d1 h_S_),
    TRef.unary main_call0.v0 main_call0.v1 (broadcastInDim S200000x1x64 ![0, 2] bcast_S200000x64_S200000x1x64_0_2),
    TRef.nullary main_call0.cst_0 (constant S_ .f32 0x40C00000#32),
    TRef.unary main_call0.cst_0 main_call0.v2 (broadcastInDim S200000x1x64 ![] bcast_S_S200000x1x64),
    TRef.binary main_call0.v1 main_call0.v2 main_call0.v3 Host.divf,
    TRef.unary main_call0.v3 main_call0.v4 (broadcastInDim S200000x6x64 ![0, 1, 2] bcast_S200000x1x64_S200000x6x64_0_1_2),
    TRef.binary (TRef.of main_v11 : TRef sig ⟨S200000x6x64, .f32⟩) main_call0.v4 main_call0.v5 subf,
    TRef.binary main_call0.v5 main_call0.v5 main_call0.v6 mulf,
    TRef.unary (TRef.of main_c_2 : TRef sig ⟨S_, .i32⟩) main_call0.v7 (sitofp .f32),
    TRef.nullary main_call0.cst_1 (constant S_ .f32 0x40C00000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S200000x6x64_S200000x64_d1 h_S_),
    TRef.unary main_call0.v9 main_call0.v10 (broadcastInDim S200000x1x64 ![0, 2] bcast_S200000x64_S200000x1x64_0_2),
    TRef.unary main_call0.v8 main_call0.v11 (broadcastInDim S200000x1x64 ![] bcast_S_S200000x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S200000x1x64 ![] bcast_S_S200000x1x64),
    TRef.ternary main_call0.v13 main_call0.v12 main_call0.call0.v1 main_call0.call0.v2 (fun p a b => select (broadcastInDim S200000x1x64 ![] bcast_S_S200000x1x64 p) a b),
    unary main_v15 main_v17 (broadcastInDim S200000x6x64 ![0, 1, 2] bcast_S200000x1x64_S200000x6x64_0_1_2 : (⟨S200000x1x64, .f32⟩ : BufTy).Contents (Elt F) → (⟨S200000x6x64, .f32⟩ : BufTy).Contents (Elt F)),
    binary main_v11 main_v17 main_v18 (subf : (⟨S200000x6x64, .f32⟩ : BufTy).Contents (Elt F) → (⟨S200000x6x64, .f32⟩ : BufTy).Contents (Elt F) → (⟨S200000x6x64, .f32⟩ : BufTy).Contents (Elt F)),
    nullary main_cst_3 (constant S_ .f32 0x3727C5AC#32),
    unary main_cst_3 main_v19 (broadcastInDim S200000x1x64 ![] bcast_S_S200000x1x64 : (⟨S_, .f32⟩ : BufTy).Contents (Elt F) → (⟨S200000x1x64, .f32⟩ : BufTy).Contents (Elt F)),
    binary main_v16 main_v19 main_v20 (addf : (⟨S200000x1x64, .f32⟩ : BufTy).Contents (Elt F) → (⟨S200000x1x64, .f32⟩ : BufTy).Contents (Elt F) → (⟨S200000x1x64, .f32⟩ : BufTy).Contents (Elt F)),
    unary main_v20 main_v21 (Host.rsqrt : (⟨S200000x1x64, .f32⟩ : BufTy).Contents (Elt F) → (⟨S200000x1x64, .f32⟩ : BufTy).Contents (Elt F)),
    unary main_v21 main_v22 (broadcastInDim S200000x6x64 ![0, 1, 2] bcast_S200000x1x64_S200000x6x64_0_1_2 : (⟨S200000x1x64, .f32⟩ : BufTy).Contents (Elt F) → (⟨S200000x6x64, .f32⟩ : BufTy).Contents (Elt F)),
    binary main_v18 main_v22 main_v23 (mulf : (⟨S200000x6x64, .f32⟩ : BufTy).Contents (Elt F) → (⟨S200000x6x64, .f32⟩ : BufTy).Contents (Elt F) → (⟨S200000x6x64, .f32⟩ : BufTy).Contents (Elt F)),
    unary main_arg3 main_v24 (broadcastInDim S1x1x64 ![2] bcast_S64_S1x1x64_2 : (⟨S64, .f32⟩ : BufTy).Contents (Elt F) → (⟨S1x1x64, .f32⟩ : BufTy).Contents (Elt F)),
    unary main_v24 main_v25 (broadcastInDim S200000x6x64 ![0, 1, 2] bcast_S1x1x64_S200000x6x64_0_1_2 : (⟨S1x1x64, .f32⟩ : BufTy).Contents (Elt F) → (⟨S200000x6x64, .f32⟩ : BufTy).Contents (Elt F)),
    binary main_v23 main_v25 main_v26 (mulf : (⟨S200000x6x64, .f32⟩ : BufTy).Contents (Elt F) → (⟨S200000x6x64, .f32⟩ : BufTy).Contents (Elt F) → (⟨S200000x6x64, .f32⟩ : BufTy).Contents (Elt F)),
    unary main_arg4 main_v27 (broadcastInDim S1x1x64 ![2] bcast_S64_S1x1x64_2 : (⟨S64, .f32⟩ : BufTy).Contents (Elt F) → (⟨S1x1x64, .f32⟩ : BufTy).Contents (Elt F)),
    unary main_v27 main_v28 (broadcastInDim S200000x6x64 ![0, 1, 2] bcast_S1x1x64_S200000x6x64_0_1_2 : (⟨S1x1x64, .f32⟩ : BufTy).Contents (Elt F) → (⟨S200000x6x64, .f32⟩ : BufTy).Contents (Elt F)),
    binary main_v26 main_v28 main_v29 (addf : (⟨S200000x6x64, .f32⟩ : BufTy).Contents (Elt F) → (⟨S200000x6x64, .f32⟩ : BufTy).Contents (Elt F) → (⟨S200000x6x64, .f32⟩ : BufTy).Contents (Elt F)),
    nullary main_cst_4 (constant S_ .f32 0x00000000#32),
    binary main_v29 main_cst_4 main_v30 ((fun x v => Host.reduceAdd x v reducesTo_S200000x6x64_S200000x64_d1 h_S_) : (⟨S200000x6x64, .f32⟩ : BufTy).Contents (Elt F) → (⟨S_, .f32⟩ : BufTy).Contents (Elt F) → (⟨S200000x64, .f32⟩ : BufTy).Contents (Elt F)) ]

-- sixty binds re-associated: the rewrite under the chain recurses once per statement
set_option maxRecDepth 2048 in
/-- @main is that straight line: the two functions' bodies unfolded at their calls, both sides are one chain of steps once
    sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., binary_bufs_sub ..⟩

/-- On every device, for any float values, from any memory with zero counters: every weakly fair execution of @main
    terminates, and every buffer ends at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefTail.lean ====
/-
  The reference from its linear layer on, read as mathematics.

  After the gathered features `X` the reference applies one linear layer to every slot and normalises the layer's
  values over the six slots.  Both are stated here as composed terms of host operations and read index by index: at
  node `n` and feature `o` the layer is `(∑ i, X n p i * W o i) + b o`, the mean is the six-slot sum over the word for
  6, the variance divides by `6 - 0` and is selected because `6 - 0 > 0`, and the result is the sum over the slots of
  the normalised, scaled and shifted values — the node function of row `n`.
-/
import proofs.«148549_j20847771255045_2_alg».proof.Proof.Gen.ReferenceIdeal
import proofs.«148549_j20847771255045_2_alg».proof.Proof.NodeNorm
import proofs.«148549_j20847771255045_2_alg».proof.Proof.LibMidAxis
import Idealize.ShloMosaic.Lib.ValueIdx
import Idealize.ShloMosaic.Lib.Pipeline.Value
import Idealize.ShloMosaic.PureOps.Ideal.Laws
import Idealize.ShloMosaic.Lib.ValueLayout

noncomputable section

namespace Cert.ReferenceIdeal.RefValue

open Cert.ReferenceIdeal Cert.ReferenceIdeal.Gen Idealize.ShloMosaic Idealize.ShloMosaic.ValueIdx

/-! ## The composed term, in four pieces -/

/-- %11: the linear layer on every slot, `X · Wᵀ + b`. -/
def linT (X : FVec Ideal S200000x6x64 .f32) (a1 : FVec Ideal S64x64 .f32) (a2 : FVec Ideal S64 .f32) :
    FVec Ideal S200000x6x64 .f32 :=
  addf (Host.dotGeneral dot_S200000x6x64_S64x64_S200000x6x64_2_1_01_0_n_n none X a1)
    (broadcastInDim S200000x6x64 ![0, 1, 2] bcast_S1x1x64_S200000x6x64_0_1_2
      (broadcastInDim S1x1x64 ![2] bcast_S64_S1x1x64_2 a2))

/-- %15, and @_var's %3: the sum over the six slots divided by the word for 6, kept with a unit slot axis. -/
def meanT (Y : FVec Ideal S200000x6x64 .f32) : FVec Ideal S200000x1x64 .f32 :=
  Host.divf
    (broadcastInDim S200000x1x64 ![0, 2] bcast_S200000x64_S200000x1x64_0_2
      (Host.reduceAdd Y (constant S_ .f32 0x00000000#32) reducesTo_S200000x6x64_S200000x64_d1 h_S_))
    (broadcastInDim S200000x1x64 ![] bcast_S_S200000x1x64 (constant S_ .f32 0x40C00000#32))

/-- @_var's %8: the variance's divisor, `6.0 - convert 0`. -/
def cntT : FVec Ideal S_ .f32 :=
  subf (constant S_ .f32 0x40C00000#32) (sitofp .f32 (constantI S_ 32 0#32))

/-- %16: the call of @_var — the squared deviations from the mean, summed over the slots, over the divisor, selected
    against the fill word where the divisor is not positive. -/
def varT (Y : FVec Ideal S200000x6x64 .f32) : FVec Ideal S200000x1x64 .f32 :=
  select (broadcastInDim S200000x1x64 ![] bcast_S_S200000x1x64 (cmpf .ogt cntT (constant S_ .f32 0x00000000#32)))
    (Host.divf
      (broadcastInDim S200000x1x64 ![0, 2] bcast_S200000x64_S200000x1x64_0_2
        (Host.reduceAdd
          (mulf (subf Y (broadcastInDim S200000x6x64 ![0, 1, 2] bcast_S200000x1x64_S200000x6x64_0_1_2 (meanT Y)))
            (subf Y (broadcastInDim S200000x6x64 ![0, 1, 2] bcast_S200000x1x64_S200000x6x64_0_1_2 (meanT Y))))
          (constant S_ .f32 0x00000000#32) reducesTo_S200000x6x64_S200000x64_d1 h_S_))
      (broadcastInDim S200000x1x64 ![] bcast_S_S200000x1x64 cntT))
    (broadcastInDim S200000x1x64 ![] bcast_S_S200000x1x64 (id (constant S_ .f32 0x7FC00000#32)))

/-- %30 as a function of %11's value: normalise, scale, shift, sum over the slots. -/
def normT (Y : FVec Ideal S200000x6x64 .f32) (a3 a4 : FVec Ideal S64 .f32) : FVec Ideal S200000x64 .f32 :=
  Host.reduceAdd
    (addf
      (mulf
        (mulf (subf Y (broadcastInDim S200000x6x64 ![0, 1, 2] bcast_S200000x1x64_S200000x6x64_0_1_2 (meanT Y)))
          (broadcastInDim S200000x6x64 ![0, 1, 2] bcast_S200000x1x64_S200000x6x64_0_1_2
            (Host.rsqrt (addf (varT Y) (broadcastInDim S200000x1x64 ![] bcast_S_S200000x1x64 (constant S_ .f32 0x3727C5AC#32))))))
        (broadcastInDim S200000x6x64 ![0, 1, 2] bcast_S1x1x64_S200000x6x64_0_1_2
          (broadcastInDim S1x1x64 ![2] bcast_S64_S1x1x64_2 a3)))
      (broadcastInDim S200000x6x64 ![0, 1, 2] bcast_S1x1x64_S200000x6x64_0_1_2
        (broadcastInDim S1x1x64 ![2] bcast_S64_S1x1x64_2 a4)))
    (constant S_ .f32 0x00000000#32) reducesTo_S200000x6x64_S200000x64_d1 h_S_

/-! ## The constants -/

/-- The word `0x40C00000` denotes the real 6. -/
theorem six_eq : Ideal.ofBits .f32 0x40C00000#32 = ((6 : ℝ) : EReal) := by
  simp [Ideal.ofBits, Ideal.ieee, -EReal.coe_mul]; norm_num

/-- The variance's divisor `6.0 - convert 0` is the word for 6: the integer word 0 converts to the real 0. -/
theorem cntT_apply (i : S_.Idx) : cntT i = Cert.NodeNorm.six := by
  show Ideal.ofBits .f32 0x40C00000#32 - (((0#32 : BitVec 32).toInt : ℝ) : EReal) = Ideal.ofBits .f32 0x40C00000#32
  have h0 : (((0#32 : BitVec 32).toInt : ℝ) : EReal) = 0 := by
    rw [show (0#32 : BitVec 32).toInt = 0 from by decide]; norm_num
  rw [h0, sub_zero]

/-- `6 - 0 > 0`: the comparison that guards the variance is true. -/
theorem guard_apply (i : S_.Idx) : cmpf .ogt cntT (constant (F := Ideal) S_ .f32 0x00000000#32) i = 1#1 := by
  show Ideal.cmp .ogt (cntT i) (Ideal.ofBits .f32 0x00000000#32) = 1#1
  rw [cntT_apply, Ideal.ofBits_zero_f32]
  show Ideal.cmp .ogt (Ideal.ofBits .f32 0x40C00000#32) 0 = 1#1
  rw [six_eq]
  unfold Ideal.cmp
  have h : (0 : EReal) < ((6 : ℝ) : EReal) := by exact_mod_cast (by norm_num : (0 : ℝ) < 6)
  simp [h]

/-! ## Each piece at an index -/

theorem reduces_d1 : S200000x6x64.Reduces [1] S200000x64 := by decide

/-- A sum over the slot axis from the zero word, at node `n` and feature `o`. -/
theorem slotSum_apply (Z : FVec Ideal S200000x6x64 .f32) (n : Fin 200000) (o : Fin 64) :
    Host.reduceAdd (F := Ideal) Z (constant S_ .f32 0x00000000#32) reducesTo_S200000x6x64_S200000x64_d1 h_S_ (ix2 n o)
      = ∑ p : Fin 6, Z (ix3 n p o) := by
  show Ideal.hostReduceAdd reducesTo_S200000x6x64_S200000x64_d1 Z (Ideal.ofBits .f32 0x00000000#32) (ix2 n o) = _
  rw [Cert.LibMidAxis.hostReduceAdd_mid reducesTo_S200000x6x64_S200000x64_d1 reduces_d1 Z _ n o, Ideal.ofBits_zero_f32, zero_add]

/-- A `[200000, 64]` array kept with a unit slot axis. -/
theorem keep_apply {α : Type} (x : S200000x64.Idx → α) (n : Fin 200000) (u : Fin 1) (o : Fin 64) :
    broadcastInDim S200000x1x64 ![0, 2] bcast_S200000x64_S200000x1x64_0_2 x (ix3 n u o) = x (ix2 n o) :=
  broadcastInDim_apply _ _ x _ (ix2 n o) fun a => by
    match a with
    | ⟨0, _⟩ => rfl
    | ⟨1, _⟩ => rfl

/-- A scalar broadcast over `[200000, 1, 64]`. -/
theorem splat_apply {α : Type} (x : S_.Idx → α) (j : S200000x1x64.Idx) :
    broadcastInDim S200000x1x64 ![] bcast_S_S200000x1x64 x j = x ix0 :=
  broadcastInDim_apply _ _ x _ ix0 fun a => a.elim0

/-- The unit slot axis broadcast back over the six slots. -/
theorem slots_apply {α : Type} (x : S200000x1x64.Idx → α) (n : Fin 200000) (p : Fin 6) (o : Fin 64) :
    broadcastInDim S200000x6x64 ![0, 1, 2] bcast_S200000x1x64_S200000x6x64_0_1_2 x (ix3 n p o) = x (ix3 n (0 : Fin 1) o) :=
  broadcastInDim_apply _ _ x _ (ix3 n (0 : Fin 1) o) fun a => by
    match a with
    | ⟨0, _⟩ => rfl
    | ⟨1, _⟩ => rfl
    | ⟨2, _⟩ => rfl

/-- A feature vector broadcast over nodes and slots. -/
theorem feat_apply {α : Type} (x : S64.Idx → α) (n : Fin 200000) (p : Fin 6) (o : Fin 64) :
    broadcastInDim S200000x6x64 ![0, 1, 2] bcast_S1x1x64_S200000x6x64_0_1_2
      (broadcastInDim S1x1x64 ![2] bcast_S64_S1x1x64_2 x) (ix3 n p o) = x (ix1 o) :=
  (broadcastInDim_apply _ _ _ _ (ix3 (0 : Fin 1) (0 : Fin 1) o) fun a => by
    match a with
    | ⟨0, _⟩ => rfl
    | ⟨1, _⟩ => rfl
    | ⟨2, _⟩ => rfl).trans
  (broadcastInDim_apply _ _ x _ (ix1 o) fun a => by
    match a with
    | ⟨0, _⟩ => rfl)

/-- The mean at node `n`, feature `o`. -/
theorem meanT_apply (Y : FVec Ideal S200000x6x64 .f32) (n : Fin 200000) (u : Fin 1) (o : Fin 64) :
    meanT Y (ix3 n u o) = Cert.NodeNorm.mean6 fun p => Y (ix3 n p o) := by
  unfold meanT Cert.NodeNorm.mean6
  show Ideal.div _ _ = _
  rw [keep_apply, slotSum_apply, splat_apply]
  rfl

/-- The deviation from the mean at node `n`, slot `p`, feature `o`. -/
theorem devT_apply (Y : FVec Ideal S200000x6x64 .f32) (n : Fin 200000) (p : Fin 6) (o : Fin 64) :
    subf Y (broadcastInDim S200000x6x64 ![0, 1, 2] bcast_S200000x1x64_S200000x6x64_0_1_2 (meanT Y)) (ix3 n p o)
      = Y (ix3 n p o) - Cert.NodeNorm.mean6 fun p => Y (ix3 n p o) := by
  rw [subf_apply, slots_apply, meanT_apply]

/-- The variance at node `n`, feature `o`: the guard holds, so the select takes the quotient. -/
theorem varT_apply (Y : FVec Ideal S200000x6x64 .f32) (n : Fin 200000) (u : Fin 1) (o : Fin 64) :
    varT Y (ix3 n u o) = Cert.NodeNorm.var6 fun p => Y (ix3 n p o) := by
  unfold varT Cert.NodeNorm.var6
  rw [select_apply, splat_apply, guard_apply, select_one]
  show Ideal.div _ _ = _
  rw [keep_apply, slotSum_apply, splat_apply, cntT_apply]
  refine congrArg (Ideal.div · Cert.NodeNorm.six) (Finset.sum_congr rfl fun p _ => ?_)
  rw [mulf_apply, devT_apply]

/-- The result at node `n`, feature `o`, as the normalisation of the six layer values there. -/
theorem normT_apply (Y : FVec Ideal S200000x6x64 .f32) (a3 a4 : FVec Ideal S64 .f32) (n : Fin 200000) (o : Fin 64) :
    normT Y a3 a4 (ix2 n o) = Cert.NodeNorm.norm6 (fun p => Y (ix3 n p o)) (a3 (ix1 o)) (a4 (ix1 o)) := by
  unfold normT Cert.NodeNorm.norm6
  rw [slotSum_apply]
  refine Finset.sum_congr rfl fun p _ => ?_
  rw [addf_apply, mulf_apply, mulf_apply, devT_apply, slots_apply, feat_apply, feat_apply]
  show _ * Ideal.rsqrt (addf (varT Y) _ (ix3 n (0 : Fin 1) o)) * _ + _ = _
  rw [addf_apply, varT_apply, splat_apply]
  rfl

/-- The linear layer at node `n`, slot `p`, feature `o`. -/
theorem linT_apply (X : FVec Ideal S200000x6x64 .f32) (a1 : FVec Ideal S64x64 .f32) (a2 : FVec Ideal S64 .f32)
    (n : Fin 200000) (p : Fin 6) (o : Fin 64) :
    linT X a1 a2 (ix3 n p o)
      = Cert.NodeNorm.lin (fun p i => X (ix3 n p i)) (fun o i => a1 (ix2 o i)) (fun o => a2 (ix1 o)) p o := by
  unfold linT Cert.NodeNorm.lin
  rw [addf_apply, feat_apply]
  refine congrArg (· + a2 (ix1 o)) ?_
  show FloatOps.dotGeneral _ none _ X a1 (ix3 n p o) = _
  rw [Ideal.dotGeneral_apply,
    ← Equiv.sum_comp (contrEquiv1 dot_S200000x6x64_S64x64_S200000x6x64_2_1_01_0_n_n 64 rfl rfl).symm]
  refine Finset.sum_congr rfl fun i _ => ?_
  have c3 := contrEquiv1_symm_val dot_S200000x6x64_S64x64_S200000x6x64_2_1_01_0_n_n 64 rfl rfl i
  have l3 : dot_S200000x6x64_S64x64_S200000x6x64_2_1_01_0_n_n.lhsIdx (ix3 n p o)
      ((contrEquiv1 _ 64 rfl rfl).symm i) = ix3 n p i := by
    funext ax; apply Fin.ext
    match ax with
    | ⟨0, _⟩ => simp [DotDims.lhsIdx, dot_S200000x6x64_S64x64_S200000x6x64_2_1_01_0_n_n]; rfl
    | ⟨1, _⟩ => simp [DotDims.lhsIdx, dot_S200000x6x64_S64x64_S200000x6x64_2_1_01_0_n_n]; rfl
    | ⟨2, _⟩ => simp [DotDims.lhsIdx, dot_S200000x6x64_S64x64_S200000x6x64_2_1_01_0_n_n]; exact c3
  have r3 : dot_S200000x6x64_S64x64_S200000x6x64_2_1_01_0_n_n.rhsIdx (ix3 n p o)
      ((contrEquiv1 _ 64 rfl rfl).symm i) = ix2 o i := by
    funext ax; apply Fin.ext
    match ax with
    | ⟨0, _⟩ => simp [DotDims.rhsIdx, dot_S200000x6x64_S64x64_S200000x6x64_2_1_01_0_n_n]; rfl
    | ⟨1, _⟩ => simp [DotDims.rhsIdx, dot_S200000x6x64_S64x64_S200000x6x64_2_1_01_0_n_n]; exact c3
  rw [l3, r3]

/-! ## The whole tail -/

/-- From the gathered features on, the reference computes the node function of every row. -/
theorem tail_eq (X : FVec Ideal S200000x6x64 .f32) (a1 : FVec Ideal S64x64 .f32) (a2 a3 a4 : FVec Ideal S64 .f32) :
    normT (linT X a1 a2) a3 a4 = Cert.NodeNorm.G X a1 a2 a3 a4 := by
  funext j
  obtain ⟨n, o, rfl⟩ : ∃ (n : Fin 200000) (o : Fin 64), j = ix2 n o := ⟨j 0, j 1, eq_ix2 j⟩
  rw [Cert.NodeNorm.G_apply, Cert.NodeNorm.out_eq_norm6, normT_apply]
  refine congrArg (fun y => Cert.NodeNorm.norm6 y (a3 (ix1 o)) (a4 (ix1 o))) (funext fun p => ?_)
  exact linT_apply X a1 a2 n p o

end Cert.ReferenceIdeal.RefValue

end
-- ==== Proof.RefValue.lean ====
/-
  What the reference's straight line leaves in memory.

  The fold of the sixty operations at the result buffer is a composed term of the six arguments: the gathered features
  (one definition, never opened), then the linear layer and the normalisation over the slots, which are the node
  function of every row.  No operation writes an argument's buffer, so the arguments end as they began.
-/
import proofs.«148549_j20847771255045_2_alg».proof.Proof.RefRun
import proofs.«148549_j20847771255045_2_alg».proof.Proof.RefTail
import proofs.«148549_j20847771255045_2_alg».proof.Proof.Gathered

noncomputable section

namespace Cert.ReferenceIdeal.RefValue

open Cert.ReferenceIdeal Cert.ReferenceIdeal.Gen Cert.ReferenceIdeal.HandRun Idealize.ShloMosaic Idealize.ShloMosaic.TcCoe Idealize.SL.Sem
  Idealize.ShloMosaic.StableHlo

/-! ## The fold at the result and at the arguments -/

attribute [local irreducible] Host.reduceAdd Host.gather Host.divf Host.rsqrt in
set_option maxRecDepth 8192 in
set_option maxHeartbeats 800000 in
/-- The fold at the result buffer is the composed term: each operation read at its own result buffer, every other
    buffer passed over; the first ten operations are the gathered features. -/
theorem out_eq (V : Valuation τ sig (Elt Ideal)) :
    after (ops (F := Ideal)) V (main_v30 : DevRef τ sig)
      = normT
          (linT
            (Cert.Gathered.xsite gather_S200000x32_S200000x12x1_S200000x12x32_2_0_n_n_0_2_132 bcast_S_S200000x12
              bcast_S200000x12_S200000x12x1_0_1 shapeCasts_S200000x12x32_S200000x6x64
              (V (main_arg0 : DevRef τ sig)) (V (main_arg5 : DevRef τ sig)))
            (V (main_arg1 : DevRef τ sig)) (V (main_arg2 : DevRef τ sig)))
          (V (main_arg3 : DevRef τ sig)) (V (main_arg4 : DevRef τ sig)) := by
  after_results_simp
  rfl

set_option maxRecDepth 8192 in
/-- No operation writes argument 0's buffer. -/
theorem arg0_eq (V : Valuation τ sig (Elt Ideal)) :
    after (ops (F := Ideal)) V (main_arg0 : DevRef τ sig) = V (main_arg0 : DevRef τ sig) := by
  after_results_simp

set_option maxRecDepth 8192 in
/-- No operation writes argument 1's buffer. -/
theorem arg1_eq (V : Valuation τ sig (Elt Ideal)) :
    after (ops (F := Ideal)) V (main_arg1 : DevRef τ sig) = V (main_arg1 : DevRef τ sig) := by
  after_results_simp

set_option maxRecDepth 8192 in
/-- No operation writes argument 2's buffer. -/
theorem arg2_eq (V : Valuation τ sig (Elt Ideal)) :
    after (ops (F := Ideal)) V (main_arg2 : DevRef τ sig) = V (main_arg2 : DevRef τ sig) := by
  after_results_simp

set_option maxRecDepth 8192 in
/-- No operation writes argument 3's buffer. -/
theorem arg3_eq (V : Valuation τ sig (Elt Ideal)) :
    after (ops (F := Ideal)) V (main_arg3 : DevRef τ sig) = V (main_arg3 : DevRef τ sig) := by
  after_results_simp

set_option maxRecDepth 8192 in
/-- No operation writes argument 4's buffer. -/
theorem arg4_eq (V : Valuation τ sig (Elt Ideal)) :
    after (ops (F := Ideal)) V (main_arg4 : DevRef τ sig) = V (main_arg4 : DevRef τ sig) := by
  after_results_simp

set_option maxRecDepth 8192 in
/-- No operation writes argument 5's buffer. -/
theorem arg5_eq (V : Valuation τ sig (Elt Ideal)) :
    after (ops (F := Ideal)) V (main_arg5 : DevRef τ sig) = V (main_arg5 : DevRef τ sig) := by
  after_results_simp

/-! ## The run -/

/-- On every device, from any memory with zero counters: every weakly fair execution of the reference terminates with
    the result buffer holding the node function of every row of the gathered features, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
        = Cert.NodeNorm.G
            (Cert.Gathered.xsite gather_S200000x32_S200000x12x1_S200000x12x32_2_0_n_n_0_2_132 bcast_S_S200000x12
              bcast_S200000x12_S200000x12x1_0_1 shapeCasts_S200000x12x32_S200000x6x64
              (m ((c.tc : Thread nD τ).loc main_arg0)) (m ((c.tc : Thread nD τ).loc main_arg5)))
            (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c =>
      ⟨(h c main_v30).trans ((out_eq _).trans (tail_eq _ _ _ _ _)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _)⟩)
    (HandRun.run m ρ)

end Cert.ReferenceIdeal.RefValue

end
-- ==== Proof.lean ====
/- The proof of `Cert.Claim`: a graph layer — gather twelve neighbour rows per node, view them as six slots of 64
   features, apply one linear layer to every slot, normalise each output feature over the six slots by its own mean and
   biased variance, scale, shift and sum over the slots — computed by a kernel over blocks of 1000 nodes and by a
   whole-array reference, equal over the extended reals.

   The two programs build the gathered features by the same operations of the same two arguments, so that array is carried
   as one function and never opened.  After it, each program's result at `(n, o)` is the SAME function of node `n`'s six
   slots, the weight matrix and the three vectors (`Cert.NodeNorm.out`): the kernel flattens the slots of a block into rows,
   multiplies by the transposed weights and splits back where the reference contracts the feature axis directly — the same
   sum over the 64 input features —; both divide the slot sums by the same constant 6 (the reference's variance divides by
   `6 - 0`, which is 6, and selects the quotient because `6 > 0`), add the same ε, take the same reciprocal square root, and
   sum the same six terms.  No law beyond the order of finite sums joins the two sides, so the finiteness of the inputs is
   never used.  The kernel's 200 blocks of rows cover the array, and a node's output reads its own row only, so the blocks
   are the restrictions of one whole-array function.  The idealized kernel is the kernel's own text read over the
   extended reals, nothing rewritten, so `preserves` is `True`. -/
import proofs.«148549_j20847771255045_2_alg».proof.Defs
import proofs.«148549_j20847771255045_2_alg».proof.Proof.Gen.Kernel
import proofs.«148549_j20847771255045_2_alg».proof.Proof.Gen.Kernel.Skeleton
import proofs.«148549_j20847771255045_2_alg».proof.Proof.Gen.Kernel.Launch
import proofs.«148549_j20847771255045_2_alg».proof.Proof.Gen.Kernel.Points
import proofs.«148549_j20847771255045_2_alg».proof.Proof.Gen.Kernel.Frame
import proofs.«148549_j20847771255045_2_alg».proof.Proof.Gen.KernelIdeal
import proofs.«148549_j20847771255045_2_alg».proof.Proof.Gen.KernelIdeal.Skeleton
import proofs.«148549_j20847771255045_2_alg».proof.Proof.Gen.KernelIdeal.Launch
import proofs.«148549_j20847771255045_2_alg».proof.Proof.Gen.KernelIdeal.Points
import proofs.«148549_j20847771255045_2_alg».proof.Proof.Gen.KernelIdeal.Frame
import proofs.«148549_j20847771255045_2_alg».proof.Proof.Gen.KernelIdeal.Value
import proofs.«148549_j20847771255045_2_alg».proof.Proof.Gen.ReferenceIdeal
import proofs.«148549_j20847771255045_2_alg».proof.Proof.Gen.Pre_finite_inputs
import proofs.«148549_j20847771255045_2_alg».proof.Proof.KernelRun
import proofs.«148549_j20847771255045_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The two programs gather with the same dimension numbers. -/
theorem gather_eq :
    Cert.ReferenceIdeal.gather_S200000x32_S200000x12x1_S200000x12x32_2_0_n_n_0_2_132
      = Cert.KernelIdeal.gather_S200000x32_S200000x12x1_S200000x12x32_2_0_n_n_0_2_132 := rfl

/-- From memories agreeing on the arguments both programs end with the node function, row by row, of the same gathered
    features, weight matrix and vectors. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5⟩ := hagree c
  rw [e0, e1, e2, e3, e4, e5, gather_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
